-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x1280 : Shape := ⟨2, ![100000, 1280]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S100000x1280 : S_.BroadcastsInDim S100000x1280 (![] : Fin 0 → Fin S100000x1280.rank)
  reducesTo_S100000x1280_S_d0_1 : S100000x1280.ReducesTo [0, 1] S_

variable [Facts]

def fn {F : FTy → Type} [FloatOps F] (main_arg0 : FVec F S100000 .f32) (main_arg1 : FVec F S100000x1280 .f32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S100000x1280 .f32 := Host.absf main_arg1
  let main_cst_0 : FVec F S_ .f32 := constant S_ .f32 0x7F800000#32
  let main_v5 : FVec F S100000x1280 .f32 := broadcastInDim S100000x1280 ![] bcast_S_S100000x1280 main_cst_0
  let main_v6 : IVec S100000x1280 1 := cmpf .olt main_v4 main_v5
  let main_c_1 : IVec S_ 1 := constantI S_ 1 1#1
  let main_v7 : IVec S_ 1 := (fun x v => Host.reduce IntOp.andi x v reducesTo_S100000x1280_S_d0_1 h_S_) main_v6 main_c_1
  let main_v8 : IVec S_ 1 := andi main_v3 main_v7
  main_v8
-- ==== Kernel.lean ====
abbrev S100000 : Shape := ⟨1, ![100000]⟩
abbrev S100000x1280 : Shape := ⟨2, ![100000, 1280]⟩
abbrev S100000x1 : Shape := ⟨2, ![100000, 1]⟩
abbrev S1000x1 : Shape := ⟨2, ![1000, 1]⟩
abbrev S1000x1280 : Shape := ⟨2, ![1000, 1280]⟩
abbrev S100000x5x256 : Shape := ⟨3, ![100000, 5, 256]⟩

abbrev nBuf : Space → Nat
  | .hbm => 5
  | .vmem => 6
  | .smem => 0
  | _ => 0

abbrev bufTy : (tb : Table) → Fin (tcTables nBuf tb) → BufTy
  | .hbm, ⟨0, _⟩ => ⟨S100000, .f32⟩
  | .hbm, ⟨1, _⟩ => ⟨S100000x1280, .f32⟩
  | .hbm, ⟨2, _⟩ => ⟨S100000x1, .f32⟩
  | .hbm, ⟨3, _⟩ => ⟨S100000x1280, .f32⟩
  | .hbm, ⟨4, _⟩ => ⟨S100000x5x256, .f32⟩
  | .local _ .vmem, ⟨0, _⟩ => ⟨S1000x1, .f32⟩
  | .local _ .vmem, ⟨1, _⟩ => ⟨S1000x1, .f32⟩
  | .local _ .vmem, ⟨2, _⟩ => ⟨S1000x1280, .f32⟩
  | .local _ .vmem, ⟨3, _⟩ => ⟨S1000x1280, .f32⟩
  | .local _ .vmem, ⟨4, _⟩ => ⟨S1000x1280, .f32⟩
  | .local _ .vmem, ⟨5, _⟩ => ⟨S1000x1280, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S100000_S100000x1 : S100000.ShapeCasts S100000x1
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x1280_d1_w32 : S1000x1280.Iotas .tc 32 [1]
  broadcasts_S1000x1_S1000x1280 : S1000x1.Broadcasts S1000x1280
  inb_S1000x1280_S1000x1280_0_0 : ∀ a, (![0, 0] : Fin 2 → Nat) a + S1000x1280.size a ≤ S1000x1280.size a
  h_S1000x1280 : 0 < S1000x1280.numel
  shapeCasts_S100000x1280_S100000x5x256 : S100000x1280.ShapeCasts S100000x5x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1.size a ≤ S100000x1.size a
  hwx0_0 : ∀ i : grid0.Coords, EltTy.bits .f32 = 32 ∨ (Rect.block (s := S100000x1) S1000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1280.size a ≤ S100000x1280.size a
  hwx0_1 : ∀ i : grid0.Coords, EltTy.bits .f32 = 32 ∨ (Rect.block (s := S100000x1280) S1000x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1280.size a ≤ S100000x1280.size a
  hwx0_2 : ∀ i : grid0.Coords, EltTy.bits .f32 = 32 ∨ (Rect.block (s := S100000x1280) S1000x1280.size (cc0_transform_2 i) (hinb0_2 i)).WholeWords (EltTy.packing .f32)

variable [Facts₀]

abbrev win0_0 : Pipeline.Window sig grid0 :=
  Pipeline.Window.ofSpec (Memref.whole main_v0) S1000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x1280.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 1 2

variable [Facts]
-- ==== ReferenceIdeal.lean ====
abbrev S100000 : Shape := ⟨1, ![100000]⟩
abbrev S100000x1280 : Shape := ⟨2, ![100000, 1280]⟩
abbrev S100000x5x256 : Shape := ⟨3, ![100000, 5, 256]⟩
abbrev S_ : Shape := ⟨0, ![]⟩
abbrev S5 : Shape := ⟨1, ![5]⟩
abbrev S1x5 : Shape := ⟨2, ![1, 5]⟩
abbrev S100000x1 : Shape := ⟨2, ![100000, 1]⟩
abbrev S100000x5 : Shape := ⟨2, ![100000, 5]⟩
abbrev S100000x5x1 : Shape := ⟨3, ![100000, 5, 1]⟩

abbrev nBuf : Space → Nat
  | .hbm => 23
  | .vmem => 0
  | .smem => 0
  | _ => 0

abbrev bufTy : (tb : Table) → Fin (tcTables nBuf tb) → BufTy
  | .hbm, ⟨0, _⟩ => ⟨S100000, .f32⟩
  | .hbm, ⟨1, _⟩ => ⟨S100000x1280, .f32⟩
  | .hbm, ⟨2, _⟩ => ⟨S100000x5x256, .f32⟩
  | .hbm, ⟨3, _⟩ => ⟨S100000, .f32⟩
  | .hbm, ⟨4, _⟩ => ⟨S100000, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S100000, .i32⟩
  | .hbm, ⟨9, _⟩ => ⟨S100000, .i32⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S5, .i32⟩
  | .hbm, ⟨14, _⟩ => ⟨S1x5, .i32⟩
  | .hbm, ⟨15, _⟩ => ⟨S100000x1, .i32⟩
  | .hbm, ⟨16, _⟩ => ⟨S100000x5, .i32⟩
  | .hbm, ⟨17, _⟩ => ⟨S100000x5, .i32⟩
  | .hbm, ⟨18, _⟩ => ⟨S100000x5, .i1⟩
  | .hbm, ⟨19, _⟩ => ⟨S100000x5x1, .i1⟩
  | .hbm, ⟨20, _⟩ => ⟨S100000x5x1, .f32⟩
  | .hbm, ⟨21, _⟩ => ⟨S100000x5x256, .f32⟩
  | .hbm, ⟨22, _⟩ => ⟨S100000x5x256, .f32⟩
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_c_0 : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  shapeCasts_S100000x1280_S100000x5x256 : S100000x1280.ShapeCasts S100000x5x256
  bcast_S_S100000 : S_.BroadcastsInDim S100000 (![] : Fin 0 → Fin S100000.rank)
  bcast_S5_S1x5_1 : S5.BroadcastsInDim S1x5 (![1] : Fin 1 → Fin S1x5.rank)
  bcast_S100000_S100000x1_0 : S100000.BroadcastsInDim S100000x1 (![0] : Fin 1 → Fin S100000x1.rank)
  bcast_S1x5_S100000x5_0_1 : S1x5.BroadcastsInDim S100000x5 (![0, 1] : Fin 2 → Fin S100000x5.rank)
  bcast_S100000x1_S100000x5_0_1 : S100000x1.BroadcastsInDim S100000x5 (![0, 1] : Fin 2 → Fin S100000x5.rank)
  bcast_S100000x5_S100000x5x1_0_1 : S100000x5.BroadcastsInDim S100000x5x1 (![0, 1] : Fin 2 → Fin S100000x5x1.rank)
  bcast_S100000x5x1_S100000x5x256_0_1_2 : S100000x5x1.BroadcastsInDim S100000x5x256 (![0, 1, 2] : Fin 3 → Fin S100000x5x256.rank)

variable [Facts₀]

class Facts : Prop extends Facts₀ where

variable [Facts]
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Slots.lean ====
/-
  The degree of a node and the two ways the programs compute it.

  A node's prediction `x` (an extended real) is rounded to the nearest integer, ties to even, and clamped to `0..5`:
  that is the number of feature slots the node keeps, `slots x`. The reference converts the rounded value to a 32-bit
  integer (a conversion that saturates) and clamps the integer; the kernel clamps the rounded value as a float to
  `[0, 5]` and converts afterwards. Both orders give the word of `slots x`: clamping to `[0, 5]` absorbs the
  saturation at the ends of the 32-bit range, and a rounded value is an integer, so the conversion does not move it.

  Then the two masks. The reference keeps slot `p` of a node when `p` is below the degree; the kernel keeps column `q`
  of the flattened `5 · 256` feature axis when `q` is below `256` times the degree, that is when the slot `q / 256` of
  that column is below the degree. Both comparisons are decided over their finitely many cases.
-/
import Idealize.ShloMosaic.PureOps.Ideal
import Idealize.ShloMosaic.PureOps.Ideal.Laws
import Idealize.ShloMosaic.Lib.ValueIdx

noncomputable section

namespace Cert.Slots

open Idealize.ShloMosaic Idealize.ShloMosaic.ValueIdx

/-- The number of kept slots of a node: its prediction rounded to the nearest integer (ties to even) and clamped
    to `0..5`; an infinite prediction counts as the end of the range on its side. -/
def slots (x : EReal) : ℕ := (Ideal.toIntClamped 0 5 (Ideal.liftRound Ideal.roundHalfEven x)).toNat

/-- The kernel's upper clamp is the real number five. -/
theorem five : Ideal.ofBits .f32 0x40A00000#32 = ((5 : ℝ) : EReal) := by
  simp [Ideal.ofBits, Ideal.ieee, -EReal.coe_mul]; norm_num

/-- There are at most five slots. -/
theorem slots_le (x : EReal) : slots x ≤ 5 := by
  unfold slots
  induction x using EReal.rec with
  | bot => simp
  | top => simp
  | coe r => simp only [Ideal.liftRound_coe, Ideal.toIntClamped_coe]; omega

/-- An integer in the signed 32-bit range is read back from its word unchanged. -/
theorem toInt_ofInt32 {n : ℤ} (h : -2147483648 ≤ n) (h' : n ≤ 2147483647) : (BitVec.ofInt 32 n).toInt = n :=
  BitVec.toInt_ofInt_eq_self (by decide) (by norm_num; omega) (by norm_num; omega)

/-- The signed maximum of two words of integers in range is the word of their maximum. -/
theorem maxsi_ofInt {a b : ℤ} (ha : -2147483648 ≤ a) (ha' : a ≤ 2147483647) (hb : -2147483648 ≤ b) (hb' : b ≤ 2147483647) :
    IntOp.maxsi (BitVec.ofInt 32 a) (BitVec.ofInt 32 b) = BitVec.ofInt 32 (max a b) := by
  unfold IntOp.maxsi
  rw [BitVec.slt_eq_decide, toInt_ofInt32 ha ha', toInt_ofInt32 hb hb']
  by_cases h : b < a
  · rw [decide_eq_true h, if_pos rfl, max_eq_left h.le]
  · rw [decide_eq_false h, if_neg (by decide), max_eq_right (not_lt.mp h)]

/-- The signed minimum of two words of integers in range is the word of their minimum. -/
theorem minsi_ofInt {a b : ℤ} (ha : -2147483648 ≤ a) (ha' : a ≤ 2147483647) (hb : -2147483648 ≤ b) (hb' : b ≤ 2147483647) :
    IntOp.minsi (BitVec.ofInt 32 a) (BitVec.ofInt 32 b) = BitVec.ofInt 32 (min a b) := by
  unfold IntOp.minsi
  rw [BitVec.slt_eq_decide, toInt_ofInt32 ha ha', toInt_ofInt32 hb hb']
  by_cases h : a < b
  · rw [decide_eq_true h, if_pos rfl, min_eq_left h.le]
  · rw [decide_eq_false h, if_neg (by decide), min_eq_right (not_lt.mp h)]

/-- Rounding an integer toward zero leaves it where it is. -/
theorem trunc_intCast (k : ℤ) : (if (0 : ℝ) ≤ (k : ℝ) then ⌊(k : ℝ)⌋ else ⌈(k : ℝ)⌉) = k := by
  split <;> simp

/-- The reference's degree word — convert the rounded prediction to a 32-bit integer (saturating), then clamp the
    integer to `0..5` — is the word of the rounded prediction clamped to `0..5`. -/
theorem ref_word (f : ℝ → ℤ) (x : EReal) :
    IntOp.minsi 5#32 (IntOp.maxsi 0#32 (Ideal.fptosi 32 (Ideal.liftRound f x)))
      = BitVec.ofNat 32 (Ideal.toIntClamped 0 5 (Ideal.liftRound f x)).toNat := by
  have h0 : (0#32 : BitVec 32) = BitVec.ofInt 32 0 := rfl
  have h5 : (5#32 : BitVec 32) = BitVec.ofInt 32 5 := rfl
  unfold Ideal.fptosi
  rw [h0, h5]
  induction x using EReal.rec with
  | bot =>
    simp only [Ideal.liftRound_bot, Ideal.toIntClamped_bot]
    rw [maxsi_ofInt (by norm_num) (by norm_num) (by norm_num) (by norm_num),
      minsi_ofInt (by norm_num) (by norm_num) (by norm_num) (by norm_num)]
    rfl
  | top =>
    simp only [Ideal.liftRound_top, Ideal.toIntClamped_top]
    rw [maxsi_ofInt (by norm_num) (by norm_num) (by norm_num) (by norm_num),
      minsi_ofInt (by norm_num) (by norm_num) (by norm_num) (by norm_num)]
    rfl
  | coe r =>
    simp only [Ideal.liftRound_coe, Ideal.toIntClamped_coe, trunc_intCast]
    generalize f r = k
    rw [maxsi_ofInt (by norm_num) (by norm_num) (by norm_num) (by norm_num),
      minsi_ofInt (by norm_num) (by norm_num) (by omega) (by omega)]
    have e : min 5 (max 0 (max (-((2 ^ (32 - 1) : ℕ) : ℤ)) (min (((2 ^ (32 - 1) : ℕ) : ℤ) - 1) k)))
        = ((max 0 (min 5 k)).toNat : ℤ) := by
      norm_num; omega
    rw [e]; rfl

/-- The kernel's degree word — clamp the rounded prediction to `[0, 5]` as a float, then convert — is the same word. -/
theorem ker_word (f : ℝ → ℤ) (x : EReal) :
    Ideal.fptosi 32 (min ((5 : ℝ) : EReal) (max 0 (Ideal.liftRound f x)))
      = BitVec.ofNat 32 (Ideal.toIntClamped 0 5 (Ideal.liftRound f x)).toNat := by
  unfold Ideal.fptosi
  induction x using EReal.rec with
  | bot =>
    have e : min ((5 : ℝ) : EReal) (max 0 (Ideal.liftRound f ⊥)) = ((0 : ℝ) : EReal) := by simp
    rw [e]; simp only [Ideal.liftRound_bot, Ideal.toIntClamped_bot, Ideal.toIntClamped_coe]; norm_num
  | top =>
    have e : min ((5 : ℝ) : EReal) (max 0 (Ideal.liftRound f ⊤)) = ((5 : ℝ) : EReal) := by simp
    rw [e]; simp only [Ideal.liftRound_top, Ideal.toIntClamped_top, Ideal.toIntClamped_coe]; norm_num; rfl
  | coe r =>
    simp only [Ideal.liftRound_coe]
    generalize f r = k
    have e : min ((5 : ℝ) : EReal) (max 0 (((k : ℤ) : ℝ) : EReal)) = ((((min 5 (max 0 k) : ℤ)) : ℝ) : EReal) := by
      show min ((5 : ℝ) : EReal) (max ((0 : ℝ) : EReal) (((k : ℤ) : ℝ) : EReal)) = _
      rw [← EReal.coe_strictMono.monotone.map_max, ← EReal.coe_strictMono.monotone.map_min]
      congr 1; simp [Int.cast_min, Int.cast_max]
    rw [e]
    simp only [Ideal.toIntClamped_coe, trunc_intCast]
    have e2 : max (-((2 ^ (32 - 1) : ℕ) : ℤ)) (min (((2 ^ (32 - 1) : ℕ) : ℤ) - 1) (min 5 (max 0 k)))
        = ((max 0 (min 5 k)).toNat : ℤ) := by
      norm_num; omega
    rw [e2]; rfl

/-- The reference's mask bit: slot `p` against a degree `d`, over the five slots and the six degrees. -/
theorem ref_bit : ∀ (d : Fin 6) (p : Fin 5),
    IntOp.cmpi .slt (BitVec.ofNat 32 p.val) (BitVec.ofNat 32 d.val) = if p.val < d.val then 1#1 else 0#1 := by
  decide

/-- The kernel's mask bit: column `q` of the flattened feature axis against `256` times a degree `d`, over the 1280
    columns and the six degrees: the column is kept iff its slot `q / 256` is below the degree. -/
theorem ker_bit : ∀ (d : Fin 6) (q : Fin 1280),
    IntOp.cmpi .slt (BitVec.ofNat 32 q.val) (IntOp.muli (BitVec.ofNat 32 d.val) 256#32)
      = if q.val / 256 < d.val then 1#1 else 0#1 := by
  decide +kernel

/-- The reference keeps slot `p` of a node with prediction `x` iff `p` is below `slots x`. -/
theorem ref_keep (x : EReal) (p : Fin 5) :
    IntOp.cmpi .slt (BitVec.ofNat 32 p.val)
        (IntOp.minsi 5#32 (IntOp.maxsi 0#32 (Ideal.fptosi 32 (Ideal.liftRound Ideal.roundHalfEven x))))
      = if p.val < slots x then 1#1 else 0#1 := by
  rw [ref_word]; exact ref_bit ⟨slots x, Nat.lt_succ_of_le (slots_le x)⟩ p

/-- The kernel keeps column `q` of a node with prediction `x` iff the column's slot `q / 256` is below `slots x`. -/
theorem ker_keep (x : EReal) (q : Fin 1280) :
    IntOp.cmpi .slt (BitVec.ofNat 32 q.val)
        (IntOp.muli (Ideal.fptosi 32 (min ((5 : ℝ) : EReal) (max 0 (Ideal.liftRound Ideal.roundHalfEven x)))) 256#32)
      = if q.val / 256 < slots x then 1#1 else 0#1 := by
  rw [ker_word]; exact ker_bit ⟨slots x, Nat.lt_succ_of_le (slots_le x)⟩ q

/-- A select on a decided bit is the `if`. -/
theorem select_ite {α : Type} (c : Prop) [Decidable c] (a b : α) :
    Scalar.select (if c then 1#1 else 0#1) a b = if c then a else b := by
  split
  · exact select_one a b
  · exact select_zero a b

/-- The reference's mask as a float: the bit of "slot `p` is kept", read unsigned, is one or zero. -/
theorem uitofp_ite (c : Prop) [Decidable c] :
    ((((if c then 1#1 else 0#1 : BitVec 1).toNat : ℝ)) : EReal) = if c then 1 else 0 := by
  split <;> simp

end Cert.Slots

end
-- ==== Proof.Spec.lean ====
/-
  What both programs compute, as one function of the two argument arrays.

  The feature matrix has a row per node and `5 · 256` columns: five slots of 256 features. The result is the
  `[nodes, 5, 256]` view of it with every slot at or beyond the node's degree zeroed: entry `(n, p, f)` is the matrix
  entry at row `n`, column `256 p + f` when `p` is below `slots` of node `n`'s prediction, and zero otherwise.
-/
import proofs.«100079_j38817914421902_2_alg».proof.Proof.Slots

noncomputable section

namespace Cert.Slots

open Idealize.ShloMosaic Idealize.ShloMosaic.ValueIdx

/-- Where entry `(n, p, f)` of the three-axis result sits in the flat feature matrix: row `n`, column `256 p + f`. -/
abbrev flat (i : (⟨3, ![100000, 5, 256]⟩ : Shape).Idx) : (⟨2, ![100000, 1280]⟩ : Shape).Idx :=
  ix2 (⟨(i 0).val, (i 0).isLt⟩ : Fin 100000) ⟨(i 1).val * 256 + (i 2).val, by
    have h1 : (i 1).val < 5 := (i 1).isLt
    have h2 : (i 2).val < 256 := (i 2).isLt
    omega⟩

/-- The masked features: slot `p` of node `n` is kept when `p` is below the node's degree, zeroed otherwise. -/
def masked (pred : (⟨1, ![100000]⟩ : Shape).Idx → EReal) (feats : (⟨2, ![100000, 1280]⟩ : Shape).Idx → EReal) :
    (⟨3, ![100000, 5, 256]⟩ : Shape).Idx → EReal :=
  fun i => if (i 1).val < slots (pred (ix1 (⟨(i 0).val, (i 0).isLt⟩ : Fin 100000))) then feats (flat i) else 0

/-- The same on the flat matrix, as the kernel writes it before the final reshape: column `q` of row `n` is kept
    when its slot `q / 256` is below the degree of node `n`, whose prediction sits in a one-column matrix. -/
def maskedFlat (pred : (⟨2, ![100000, 1]⟩ : Shape).Idx → EReal) (feats : (⟨2, ![100000, 1280]⟩ : Shape).Idx → EReal) :
    (⟨2, ![100000, 1280]⟩ : Shape).Idx → EReal :=
  fun i => if (i 1).val / 256 < slots (pred (ix2 (⟨(i 0).val, (i 0).isLt⟩ : Fin 100000) (0 : Fin 1))) then feats i else 0

end Cert.Slots

end
-- ==== Proof.Payload.lean ====
/-
  One entry of what the kernel body stores.

  The body loads a block of 1000 predictions (a one-column matrix) and the matching 1000 rows of the feature matrix,
  and stores the rows with every column at or beyond `256 ·` the row's degree replaced by zero. Entry `(r, q)` of the
  stored block is therefore the loaded entry when the slot `q / 256` of column `q` is below the degree of row `r`'s
  prediction, and zero otherwise.
-/
import proofs.«100079_j38817914421902_2_alg».proof.Proof.Gen.KernelIdeal.Skeleton
import proofs.«100079_j38817914421902_2_alg».proof.Proof.LibKeepdims
import proofs.«100079_j38817914421902_2_alg».proof.Proof.Spec
import Idealize.ShloMosaic.Lib.Pipeline.Value

noncomputable section

namespace Cert.KernelIdeal.MaskValue

open Cert.KernelIdeal Cert.KernelIdeal.Gen Idealize.ShloMosaic Idealize.ShloMosaic.ValueIdx Cert.Slots Cert.Lib

/-- An integer comparison of two vectors at an index compares the elements. -/
theorem cmpi_apply {s : Shape} {w : ℕ} (p : CmpIPredicate) (a b : IVec s w) (i : s.Idx) :
    cmpi p a b i = IntOp.cmpi p (a i) (b i) := rfl

/-- Entry `(r, q)` of the stored block: the loaded feature when column `q`'s slot is below row `r`'s degree, else zero. -/
theorem pay_apply (x0 : Vec Ideal S1000x1 .f32) (x1 : Vec Ideal S1000x1280 .f32) (r : Fin 1000) (q : Fin 1280) :
    k0_pay1 (F := Ideal) x0 x1 (ix2 r q)
      = if q.val / 256 < slots (x0 (ix2 r (0 : Fin 1))) then x1 (ix2 r q) else 0 := by
  unfold k0_pay1
  dsimp only
  rw [select_apply, cmpi_apply, iota_single_apply, broadcastTo_a1_ab_apply, shapeCast_self]
  show Scalar.select (IntOp.cmpi .slt (BitVec.ofNat 32 q.val) (IntOp.muli (Ideal.fptosi 32
      (min (Ideal.ofBits .f32 0x40A00000#32) (max (Ideal.ofBits .f32 0x00000000#32)
        (Ideal.liftRound Ideal.roundHalfEven (x0 (ix2 r (0 : Fin 1))))))) 256#32))
    (x1 (ix2 r q)) (Ideal.ofBits .f32 0x00000000#32) = _
  rw [five, Ideal.ofBits_zero_f32, ker_keep, select_ite]

end Cert.KernelIdeal.MaskValue

end
-- ==== Proof.KernelValue.lean ====
/-
  From the blocks to the whole array, and the reshape after the region.

  The grid has 100 points; point `t` stages rows `1000 t … 1000 t + 999` of the one-column prediction matrix and of
  the feature matrix, and writes back the same rows of the output matrix. What a point writes back is its block of
  ONE whole-matrix function — the feature matrix with each row masked by that row's degree — because an entry of the
  stored block depends only on the prediction and the feature of its own row. The hundred blocks tile the matrix, so
  after the region the output matrix is that function; the host reshape after the region then views it as
  `[nodes, 5, 256]`, and the host reshape before it is what made the predictions a one-column matrix.
-/
import proofs.«100079_j38817914421902_2_alg».proof.Proof.Gen.KernelIdeal.Frame
import proofs.«100079_j38817914421902_2_alg».proof.Proof.Payload
import Idealize.ShloMosaic.Lib.Pipeline.Value
import Idealize.ShloMosaic.Lib.StableHlo.Run

set_option maxRecDepth 16384

noncomputable section

namespace Cert.KernelIdeal.MaskValue

open Cert.KernelIdeal Cert.KernelIdeal.Gen Idealize.ShloMosaic Idealize.ShloMosaic.TcCoe Idealize.SL.Sem
open Idealize.ShloMosaic.ValueIdx Cert.Slots Cert.Lib
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The three windows move together: at point `t` each is on block row `t` (at most 99) and block column 0. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 99 :=
  (by decide +kernel : ∀ t : Fin grid0.N, _)

/-- Every block row is some point's. -/
theorem idx_onto : ∀ b : Fin 100, ∃ t : Fin cfg0.N, win0_2.index t = ![b.val, 0] :=
  (by decide +kernel : ∀ b : Fin 100, ∃ t : Fin grid0.N, win0_2.index t = ![b.val, 0])

/-- What point `t` writes back is its block of the feature matrix masked row by row by the one-column predictions,
    both as the region finds them. -/
theorem flushed_eq (c : Dev nD) (t : Fin cfg0.N) :
    (dats m 0 c).flushed 2 t
      = ((cfg0.win 2).blk t).view.read (Elt Ideal) (maskedFlat (V m c main_v0) (V m c main_arg1)) := by
  show (cfg0.win 2).cut (grid0.coords t) ((dats m 0 c).after 2 t) = _
  rw [after0_2]
  unfold out0_2
  rw [View.canon_unit_zero zero_offsets]
  simp only [View.ld_unit_zero (S := S1000x1) zero_offsets, View.ld_unit_zero (S := S1000x1280) zero_offsets]
  obtain ⟨e0, e1, e2, e3, e4, e5⟩ := idx_facts t
  funext j
  obtain ⟨r, q, rfl⟩ : ∃ (r : Fin 1000) (q : Fin 1280), j = ix2 r q := ⟨j 0, j 1, eq_ix2 j⟩
  show k0_pay1 (F := Ideal) (iblk m c 0 t) (iblk m c 1 t) (ix2 r q)
    = maskedFlat (V m c main_v0) (V m c main_arg1) (((cfg0.win 2).blk t).view.emb (ix2 r q))
  refine (pay_apply (iblk m c 0 t) (iblk m c 1 t) r q).trans ?_
  have h0 : iblk m c 0 t (ix2 r (0 : Fin 1))
      = V m c main_v0 (ix2 (⟨((((cfg0.win 2).blk t).view.emb (ix2 r q)) 0).val, ((((cfg0.win 2).blk t).view.emb (ix2 r q)) 0).isLt⟩ : Fin 100000) (0 : Fin 1)) := by
    show V m c main_v0 (((cfg0.win 0).blk t).view.emb (ix2 r (0 : Fin 1))) = V m c main_v0 _
    refine congrArg _ (funext fun a => Fin.ext ?_)
    match a with
    | ⟨0, _⟩ => show win0_0.index t (0 : Fin 2) * 1000 + 1 * r.val = win0_2.index t (0 : Fin 2) * 1000 + 1 * r.val; omega
    | ⟨1, _⟩ => show win0_0.index t (1 : Fin 2) * 1 + 1 * 0 = 0; omega
  have h1 : iblk m c 1 t (ix2 r q) = V m c main_arg1 (((cfg0.win 2).blk t).view.emb (ix2 r q)) := by
    show V m c main_arg1 (((cfg0.win 1).blk t).view.emb (ix2 r q)) = _
    refine congrArg _ (funext fun a => Fin.ext ?_)
    match a with
    | ⟨0, _⟩ => show win0_1.index t (0 : Fin 2) * 1000 + 1 * r.val = win0_2.index t (0 : Fin 2) * 1000 + 1 * r.val; omega
    | ⟨1, _⟩ => show win0_1.index t (1 : Fin 2) * 1280 + 1 * q.val = win0_2.index t (1 : Fin 2) * 1280 + 1 * q.val; omega
  have hq : ((((cfg0.win 2).blk t).view.emb (ix2 r q)) 1).val = q.val := by
    show win0_2.index t (1 : Fin 2) * 1280 + 1 * q.val = q.val; omega
  unfold maskedFlat
  rw [h0, h1, hq]

/-- An index of the output matrix is in point `t`'s block iff each coordinate is in the block's range on its axis. -/
theorem mem_blk (t : Fin cfg0.N) (i : S100000x1280.Idx) :
    i ∈ ((cfg0.win 2).blk t).view.set ↔ ∀ a : Fin 2, win0_2.index t a * S1000x1280.size a ≤ (i a).val
      ∧ (i a).val < win0_2.index t a * S1000x1280.size a + S1000x1280.size a := by
  show i ∈ ((View.whole main_v1).slice (win0_2.rect t)).set ↔ _
  rw [View.set_slice_whole, Rect.mem_set_unit]
  exact Iff.rfl

/-- The blocks tile the matrix: row `n` is in the block of the point on block row `n / 1000`. -/
theorem cover (i : S100000x1280.Idx) :
    ∃ t : Fin cfg0.N, (cfg0.win 2).flush t = true ∧ i ∈ ((cfg0.win 2).blk t).view.set := by
  have hi0 : (i 0).val < 100000 := (i 0).isLt
  have hi1 : (i 1).val < 1280 := (i 1).isLt
  obtain ⟨t, ht⟩ := idx_onto ⟨(i 0).val / 1000, by omega⟩
  have q0 : win0_2.index t (0 : Fin 2) = (i 0).val / 1000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 1280 ≤ (i 1).val ∧ (i 1).val < win0_2.index t (1 : Fin 2) * 1280 + 1280; omega

/-- The one-column prediction matrix the region finds is the host reshape of the prediction vector. -/
theorem V_main_v0 (c : Dev nD) : (V m c main_v0 : S100000x1.Idx → EReal)
    = shapeCast S100000x1 (m ((c : Thread nD τ).loc main_arg0)) shapeCasts_S100000_S100000x1 := by
  show StableHlo.after hostOps0 (fun b => m (c, b)) (Proc.devRef .tc main_v0) = _
  after_results
  rfl

/-- The output matrix after the region: the feature matrix masked row by row by the reshaped predictions. -/
theorem final (c : Dev nD) : (dats m 0 c).arrAt 2 cfg0.N
    = maskedFlat (shapeCast S100000x1 (m ((c : Thread nD τ).loc main_arg0)) shapeCasts_S100000_S100000x1)
        (m ((c : Thread nD τ).loc main_arg1)) := by
  rw [(dats m 0 c).arrAt_eq_of_cover 2 _ (fun t _ => flushed_eq m c t) cover, V_main_v0, V_main_arg1]

/-- The result after the reshape that follows the region. -/
theorem tail_eq (c : Dev nD) : Pipeline.afterTail₀ cfgs (dats m) 0 (V0 m) [hostOps1] c main_v2
    = shapeCast S100000x5x256
        (maskedFlat (shapeCast S100000x1 (m ((c : Thread nD τ).loc main_arg0)) shapeCasts_S100000_S100000x1)
          (m ((c : Thread nD τ).loc main_arg1))) shapeCasts_S100000x1280_S100000x5x256 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = maskedFlat (shapeCast S100000x1 (m ((c : Thread nD τ).loc main_arg0)) shapeCasts_S100000_S100000x1)
          (m ((c : Thread nD τ).loc main_arg1)) :=
    (Pipeline.withArrays_arr spec0 launch0.win.arr_inj c _ _ 2).trans (final m c)
  exact congrArg (fun X => shapeCast S100000x5x256 X shapeCasts_S100000x1280_S100000x5x256) e

/-- The masked flat matrix over the reshaped predictions, viewed as `[nodes, 5, 256]`, is the masked features:
    entry `(n, p, f)` is the flat entry at row `n`, column `256 p + f`, whose slot is `p`. -/
theorem relaid_eq (a0 : S100000.Idx → EReal) (a1 : S100000x1280.Idx → EReal) :
    shapeCast S100000x5x256 (maskedFlat (shapeCast S100000x1 a0 shapeCasts_S100000_S100000x1) a1)
      shapeCasts_S100000x1280_S100000x5x256 = masked a0 a1 := by
  funext i
  have h0 : (i 0).val < 100000 := (i 0).isLt
  have h1 : (i 1).val < 5 := (i 1).isLt
  have h2 : (i 2).val < 256 := (i 2).isLt
  rw [shapeCast_apply _ shapeCasts_S100000x1280_S100000x5x256 i (flat i) (by
    rw [Shape.rowMajor_val_two, Shape.rowMajor_val_three]
    show (i 0).val * 1280 + ((i 1).val * 256 + (i 2).val) = ((i 0).val * 5 + (i 1).val) * 256 + (i 2).val
    omega)]
  unfold maskedFlat masked
  rw [shapeCast_a_a1_apply]
  have hs : ((flat i) 1).val / 256 = (i 1).val := by
    show ((i 1).val * 256 + (i 2).val) / 256 = (i 1).val
    omega
  rw [hs]

/-- The kernel's run: every weakly fair execution terminates with the result at the masked features of the
    arguments, and the arguments unchanged. -/
theorem run : θ_run defs (onTc (τ := τ) (main (F := Ideal))) ⟨m, fun _ => 0, ρ⟩ fun r => ∀ c : Dev nD,
      r.2.mem ((c : Thread nD τ).loc main_v2)
        = masked (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v2 (Pipeline.mem_restRefs_of main_v2 (by decide) (by decide))).trans
          ((tail_eq m c).trans (relaid_eq _ _)),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KernelIdeal.MaskValue

end
-- ==== Proof.RefValue.lean ====
/-
  The reference computes the masked features.

  Read one entry `(n, p, f)` of the reference's result through its operations: the reshaped feature matrix gives the
  matrix entry at row `n`, column `256 p + f`; the mask is the comparison of the slot number `p` (an iota broadcast over
  the nodes) with node `n`'s degree word, converted to a float one or zero and broadcast over the 256 features; the
  result is their product. A product with one keeps the entry and a product with zero is zero, on every extended
  real, so no finiteness of the features is used.
-/
import proofs.«100079_j38817914421902_2_alg».proof.Proof.Gen.ReferenceIdeal.Read
import proofs.«100079_j38817914421902_2_alg».proof.Proof.Spec

noncomputable section

namespace Cert.ReferenceIdeal.RefValue

open Cert.ReferenceIdeal Cert.ReferenceIdeal.Read Idealize.ShloMosaic Idealize.ShloMosaic.ValueIdx Cert.Slots

/-- The node whose degree masks entry `(n, p, f)` is `n`. -/
theorem idx_node (i : S100000x5x256.Idx) :
    idx_main_v6 (idx_main_v8 (idx_main_v10 (idx_main_v12 i))) = ix1 (⟨(i 0).val, (i 0).isLt⟩ : Fin 100000) :=
  funext fun a => by match a with | ⟨0, _⟩ => rfl

/-- The slot number compared with it is `p`. -/
theorem idx_slot (i : S100000x5x256.Idx) :
    ((idx_main_v5 (idx_main_v7 (idx_main_v10 (idx_main_v12 i)))) 0).val = (i 1).val := rfl

/-- The reshape reads the flat matrix at row `n`, column `256 p + f`. -/
theorem idx_flat (i : S100000x5x256.Idx) : idx_main_v0 i = flat i := by
  have h0 : (i 0).val < 100000 := (i 0).isLt
  have h1 : (i 1).val < 5 := (i 1).isLt
  have h2 : (i 2).val < 256 := (i 2).isLt
  funext a; apply Fin.ext
  match a with
  | ⟨0, _⟩ => show (((i 0).val * 5 + (i 1).val) * 256 + (i 2).val) / 1280 = (i 0).val; omega
  | ⟨1, _⟩ => show (((i 0).val * 5 + (i 1).val) * 256 + (i 2).val) % 1280 = (i 1).val * 256 + (i 2).val; omega

/-- The reference's result is the masked features of its arguments. -/
theorem ref_eq (x0 : (⟨S100000, .f32⟩ : BufTy).Contents (Elt Ideal)) (x1 : (⟨S100000x1280, .f32⟩ : BufTy).Contents (Elt Ideal)) :
    val_main_v13 (F := Ideal) x0 x1 = masked x0 x1 := by
  funext i
  rw [val_main_v13_apply, val_main_v0_apply, val_main_v12_apply, val_main_v11_apply, val_main_v10_apply,
    val_main_v9_apply, val_main_v7_apply, val_main_v5_apply, val_main_v4_apply, val_main_v8_apply, val_main_v6_apply,
    val_main_v3_apply, val_main_call1_v4_apply, val_main_call1_v3_apply, val_main_c_0_apply, val_main_call1_v2_apply,
    val_main_call1_v1_apply, val_main_call1_v0_apply, val_main_c_apply, val_main_v2_apply, val_main_v1_apply,
    idx_node, idx_slot, idx_flat]
  show x1 (flat i) * ((((IntOp.cmpi .slt (BitVec.ofNat 32 (i 1).val) (IntOp.minsi 5#32 (IntOp.maxsi 0#32
    (Ideal.fptosi 32 (Ideal.liftRound Ideal.roundHalfEven (x0 (ix1 (⟨(i 0).val, (i 0).isLt⟩ : Fin 100000)))))))).toNat : ℝ)) : EReal) = _
  rw [ref_keep (x0 (ix1 (⟨(i 0).val, (i 0).isLt⟩ : Fin 100000))) (i 1), uitofp_ite, mul_ite, mul_one, mul_zero]
  rfl

end Cert.ReferenceIdeal.RefValue

end
-- ==== Proof.lean ====
/-
  The kernel and its reference compute the same masked features.

  A node's prediction is rounded to the nearest integer and clamped to `0..5`: its degree. Of the node's five slots
  of 256 features, the slots below the degree are kept and the others zeroed. The reference clamps the rounded
  prediction after converting it to an integer and multiplies the features by a zero-or-one mask over the slots; the
  kernel clamps it before converting, compares each column of the flattened `5 · 256` axis with `256` times the
  degree, and selects the feature or zero, one block of 1000 nodes per grid point, with a reshape on either side.

  Both results are ONE function of the argument arrays (`Cert.Slots.masked`, Proof/Spec.lean):
  * the two orders of clamping and converting give the same degree word, and column `q` is below `256 d` exactly when
    its slot `q / 256` is below `d` (Proof/Slots.lean);
  * a product with one or zero and a select between the feature and zero agree on every extended real, so the
    finiteness of the inputs is never used;
  * the kernel's blocks are restrictions of one masked matrix and tile it (Proof/Payload.lean, Proof/KernelValue.lean);
    the reference is read one operation at a time (Proof/RefValue.lean).
  The three frames are the generated frame runs (the reference's is its generated run with the result dropped), and
  nothing was rewritten in the idealized kernel, so it preserves the kernel trivially.
-/
import proofs.«100079_j38817914421902_2_alg».proof.Defs
import proofs.«100079_j38817914421902_2_alg».proof.Proof.Gen.Kernel
import proofs.«100079_j38817914421902_2_alg».proof.Proof.Gen.Kernel.Skeleton
import proofs.«100079_j38817914421902_2_alg».proof.Proof.Gen.Kernel.Launch
import proofs.«100079_j38817914421902_2_alg».proof.Proof.Gen.Kernel.Points
import proofs.«100079_j38817914421902_2_alg».proof.Proof.Gen.Kernel.Frame
import proofs.«100079_j38817914421902_2_alg».proof.Proof.Gen.KernelIdeal
import proofs.«100079_j38817914421902_2_alg».proof.Proof.Gen.KernelIdeal.Skeleton
import proofs.«100079_j38817914421902_2_alg».proof.Proof.Gen.KernelIdeal.Launch
import proofs.«100079_j38817914421902_2_alg».proof.Proof.Gen.KernelIdeal.Points
import proofs.«100079_j38817914421902_2_alg».proof.Proof.Gen.KernelIdeal.Frame
import proofs.«100079_j38817914421902_2_alg».proof.Proof.Gen.ReferenceIdeal
import proofs.«100079_j38817914421902_2_alg».proof.Proof.Gen.ReferenceIdeal.Run
import proofs.«100079_j38817914421902_2_alg».proof.Proof.Gen.ReferenceIdeal.Read
import proofs.«100079_j38817914421902_2_alg».proof.Proof.Gen.Pre_finite_inputs
import proofs.«100079_j38817914421902_2_alg».proof.Proof.KernelValue
import proofs.«100079_j38817914421902_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals, from memories that agree on the two arguments, both programs end with the masked
    features of those arguments. -/
theorem algebraic : Cert.algebraic_KernelIdeal_ReferenceIdeal := by
  intro m ρ m' ρ' _ hagree
  refine ⟨fun c => Cert.Slots.masked
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.MaskValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v13_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
